-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8192x16384 : Shape := ⟨2, ![8192, 16384]⟩
abbrev S256x4096 : Shape := ⟨2, ![256, 4096]⟩
abbrev S1024x4096 : Shape := ⟨2, ![1024, 4096]⟩
abbrev S256x1 : Shape := ⟨2, ![256, 1]⟩
abbrev S256x1024 : Shape := ⟨2, ![256, 1024]⟩
abbrev S4x2048x16384 : Shape := ⟨3, ![4, 2048, 16384]⟩

abbrev nBuf : Space → Nat
  | .hbm => 44
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | .hbm, ⟨18, _⟩ => ⟨S16384x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .bf16⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x16384, .f32⟩
  | .hbm, ⟨43, _⟩ => ⟨S4x2048x16384, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S256x1, .f32⟩
  | .local _ .vmem, ⟨5, _⟩ => ⟨S256x1, .f32⟩
  | .local _ .vmem, ⟨6, _⟩ => ⟨S256x1024, .f32⟩
  | .local _ .vmem, ⟨7, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_cst_6 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bitsLt_bf16_f32 : FTy.bits .bf16 < FTy.bits .f32
  reducesTo_S16384x4096_S_d0_1 : S16384x4096.ReducesTo [0, 1] S_
  bcast_S_S16384x4096 : S_.BroadcastsInDim S16384x4096 (![] : Fin 0 → Fin S16384x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S8192x16384_S4x2048x16384 : S8192x16384.ShapeCasts S4x2048x16384
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x16384.size a
  hwx0_3 : ∀ i : grid0.Coords, EltTy.bits .f32 = 32 ∨ (Rect.block (s := S8192x16384) S256x1024.size (cc0_transform_3 i) (hinb0_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v10) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S4096x16384 : Shape := ⟨2, ![4096, 16384]⟩
abbrev S8192x16384 : Shape := ⟨2, ![8192, 16384]⟩
abbrev S4x2048x16384 : Shape := ⟨3, ![4, 2048, 16384]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S4096x16384, .f32⟩
  | .hbm, ⟨43, _⟩ => ⟨S8192x16384, .f32⟩
  | .hbm, ⟨44, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  shapeCasts_S4x2048x4096_S8192x4096 : S4x2048x4096.ShapeCasts S8192x4096
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  transposes_S16384x4096_S4096x16384_1_0 : S16384x4096.Transposes [1, 0] S4096x16384
  shapeCasts_S8192x16384_S4x2048x16384 : S8192x16384.ShapeCasts S4x2048x16384
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Stages.lean ====
/-
  The arithmetic both programs share, as pure functions of the two argument arrays, and the facts about it.

  x is read as a matrix of 8192 rows (tokens) by 4096 columns; w is 16384 rows (output features) by 4096 columns.
    g r      = max (2^-27-ish floor c, max_k |x r k|)          the row's scale, clipped below at the literal c = 1e-8
    a r k    = roundeven (x r k / g r * 127)                   the row quantised to integers
    α        = (0 + Σ_{f,k} |w f k|) / 2^26 + c                 the mean absolute weight plus c
    b f k    = min 1 (max (-1) (roundeven (w f k / α)))         the weights quantised to {-1, 0, 1}
  One program multiplies the integer matrices and rescales each row once:  (Σ_k a r k * b f k) * (g r / 127 * α);
  the other rescales every entry first:  Σ_k (a r k / 127 * g r) * (b f k * α).
-/
import Idealize.ShloMosaic.PureOps
import Idealize.ShloMosaic.PureOps.Ideal
import Idealize.ShloMosaic.PureOps.Ideal.Laws
import Idealize.ShloMosaic.Lib.Pipeline.Value
import Idealize.ShloMosaic.Lib.ValueIdx

noncomputable section

namespace Cert.BitLinear

open Idealize.ShloMosaic

/-! ## Shapes and their relations -/

abbrev SX3 : Shape := ⟨3, ![4, 2048, 4096]⟩
abbrev SW : Shape := ⟨2, ![16384, 4096]⟩
abbrev SX : Shape := ⟨2, ![8192, 4096]⟩
abbrev S0 : Shape := ⟨0, ![]⟩
abbrev SR : Shape := ⟨1, ![8192]⟩
abbrev SC : Shape := ⟨2, ![8192, 1]⟩

theorem hcastX : SX3.ShapeCasts SX := by decide
theorem hredRow : SX.ReducesTo [1] SR := by decide
theorem hS0 : 0 < S0.numel := by decide
theorem hbRC : SR.BroadcastsInDim SC (![0] : Fin 1 → Fin SC.rank) := by decide
theorem hb0C : S0.BroadcastsInDim SC (![] : Fin 0 → Fin SC.rank) := by decide
theorem hbCX : SC.BroadcastsInDim SX (![0, 1] : Fin 2 → Fin SX.rank) := by decide
theorem hb0X : S0.BroadcastsInDim SX (![] : Fin 0 → Fin SX.rank) := by decide
theorem hredAll : SW.ReducesTo [0, 1] S0 := by decide
theorem hb0W : S0.BroadcastsInDim SW (![] : Fin 0 → Fin SW.rank) := by decide

variable {F : FTy → Type} [FloatOps F]

/-! ## The shared stages -/

/-- x as an 8192 by 4096 matrix. -/
def xmat (x : FVec F SX3 .f32) : FVec F SX .f32 := shapeCast SX x hcastX

/-- The row scales g, as a column: the larger of the literal c and the row's greatest absolute value. -/
def rowScale (x : FVec F SX3 .f32) : FVec F SC .f32 :=
  maximumf (broadcastInDim SC ![] hb0C (id (constant S0 .f32 0x322BCC77#32)))
    (broadcastInDim SC ![0] hbRC (Host.reduce FloatOps.maximumf (Host.absf (xmat x)) (constant S0 .f32 0xFF800000#32) hredRow hS0))

/-- The quantised activations a. -/
def actInt (x : FVec F SX3 .f32) : FVec F SX .f32 :=
  Host.roundeven (mulf (Host.divf (xmat x) (broadcastInDim SX ![0, 1] hbCX (rowScale x)))
    (broadcastInDim SX ![] hb0X (constant S0 .f32 0x42FE0000#32)))

/-- The weight scale α, a scalar. -/
def wScale (w : FVec F SW .f32) : FVec F S0 .f32 :=
  addf (Host.divf (Host.reduceAdd (Host.absf w) (constant S0 .f32 0x00000000#32) hredAll hS0) (constant S0 .f32 0x4C800000#32))
    (constant S0 .f32 0x322BCC77#32)

/-- The ternary weights b. -/
def wInt (w : FVec F SW .f32) : FVec F SW .f32 :=
  minimumf (broadcastInDim SW ![] hb0W (id (constant S0 .f32 0x3F800000#32)))
    (maximumf (broadcastInDim SW ![] hb0W (id (constant S0 .f32 0xBF800000#32)))
      (Host.roundeven (Host.divf w (broadcastInDim SW ![] hb0W (wScale w)))))

/-- The per-row factor g / 127 * α the first program applies after its integer product. -/
def rowFactor (x : FVec F SX3 .f32) (w : FVec F SW .f32) : FVec F SC .f32 :=
  mulf (Host.divf (rowScale x) (broadcastInDim SC ![] hb0C (constant S0 .f32 0x42FE0000#32)))
    (broadcastInDim SC ![] hb0C (wScale w))

/-- The dequantised activations a / 127 * g the second program multiplies. -/
def actDeq (x : FVec F SX3 .f32) : FVec F SX .f32 :=
  mulf (Host.divf (actInt x) (broadcastInDim SX ![] hb0X (constant S0 .f32 0x42FE0000#32)))
    (broadcastInDim SX ![0, 1] hbCX (rowScale x))

/-- The dequantised weights b * α the second program multiplies. -/
def wDeq (w : FVec F SW .f32) : FVec F SW .f32 :=
  mulf (wInt w) (broadcastInDim SW ![] hb0W (wScale w))

end Cert.BitLinear

end
-- ==== Proof.RefRun.lean ====
/-
  The run of the reference program, read back as a value.

  The reference is a straight line of 43 array operations. Listed in order (the helper functions it calls stand at
  their call sites, each of their lines an ordinary operation on that call's buffers), every weakly fair execution
  of it ends with the result buffer holding the matrix product of the dequantised activations and the transposed
  dequantised weights, reshaped to [4, 2048, 16384], and with both arguments unchanged.
-/
import proofs.«161110_j11570641895430_2_alg».proof.Proof.Gen.ReferenceIdeal
import proofs.«161110_j11570641895430_2_alg».proof.Proof.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.BitLinear

variable {F : FTy → Type} [FloatOps F]

/-- The 43 operations in program order. -/
abbrev ops : List (HloOp τ sig (Elt F)) :=
  [ unary main_arg1 main_v0 (Host.absf : (⟨S16384x4096, .f32⟩ : BufTy).Contents (Elt F) → (⟨S16384x4096, .f32⟩ : BufTy).Contents (Elt F)),
    nullary main_cst (constant S_ .f32 0x00000000#32),
    binary main_v0 main_cst main_v1 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    nullary main_cst_0 (constant S_ .f32 0x4C800000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x322BCC77#32),
    binary main_v2 main_cst_1 main_v3 (addf : (⟨S_, .f32⟩ : BufTy).Contents (Elt F) → (⟨S_, .f32⟩ : BufTy).Contents (Elt F) → (⟨S_, .f32⟩ : BufTy).Contents (Elt F)),
    unary main_v3 main_v4 (broadcastInDim S16384x4096 ![] bcast_S_S16384x4096 : (⟨S_, .f32⟩ : BufTy).Contents (Elt F) → (⟨S16384x4096, .f32⟩ : BufTy).Contents (Elt F)),
    binary main_arg1 main_v4 main_v5 (Host.divf : (⟨S16384x4096, .f32⟩ : BufTy).Contents (Elt F) → (⟨S16384x4096, .f32⟩ : BufTy).Contents (Elt F) → (⟨S16384x4096, .f32⟩ : BufTy).Contents (Elt F)),
    unary main_v5 main_v6 ((Host.roundeven) : (⟨S16384x4096, .f32⟩ : BufTy).Contents (Elt F) → (⟨S16384x4096, .f32⟩ : BufTy).Contents (Elt F)),
    nullary main_cst_2 (constant S_ .f32 0xBF800000#32),
    nullary main_cst_3 (constant S_ .f32 0x3F800000#32),
    unary main_cst_2 main_call1_v0 ((id) : (⟨S_, .f32⟩ : BufTy).Contents (Elt F) → (⟨S_, .f32⟩ : BufTy).Contents (Elt F)),
    unary main_call1_v0 main_call1_v1 (((broadcastInDim S16384x4096 ![] bcast_S_S16384x4096)) : (⟨S_, .f32⟩ : BufTy).Contents (Elt F) → (⟨S16384x4096, .f32⟩ : BufTy).Contents (Elt F)),
    binary main_call1_v1 main_v6 main_call1_v2 ((maximumf) : (⟨S16384x4096, .f32⟩ : BufTy).Contents (Elt F) → (⟨S16384x4096, .f32⟩ : BufTy).Contents (Elt F) → (⟨S16384x4096, .f32⟩ : BufTy).Contents (Elt F)),
    unary main_cst_3 main_call1_v3 ((id) : (⟨S_, .f32⟩ : BufTy).Contents (Elt F) → (⟨S_, .f32⟩ : BufTy).Contents (Elt F)),
    unary main_call1_v3 main_call1_v4 (((broadcastInDim S16384x4096 ![] bcast_S_S16384x4096)) : (⟨S_, .f32⟩ : BufTy).Contents (Elt F) → (⟨S16384x4096, .f32⟩ : BufTy).Contents (Elt F)),
    binary main_call1_v4 main_call1_v2 main_v7 ((minimumf) : (⟨S16384x4096, .f32⟩ : BufTy).Contents (Elt F) → (⟨S16384x4096, .f32⟩ : BufTy).Contents (Elt F) → (⟨S16384x4096, .f32⟩ : BufTy).Contents (Elt F)),
    unary main_v3 main_v8 (broadcastInDim S16384x4096 ![] bcast_S_S16384x4096 : (⟨S_, .f32⟩ : BufTy).Contents (Elt F) → (⟨S16384x4096, .f32⟩ : BufTy).Contents (Elt F)),
    binary main_v7 main_v8 main_v9 (mulf : (⟨S16384x4096, .f32⟩ : BufTy).Contents (Elt F) → (⟨S16384x4096, .f32⟩ : BufTy).Contents (Elt F) → (⟨S16384x4096, .f32⟩ : BufTy).Contents (Elt F)),
    reshape main_arg0 main_v10 rfl shapeCasts_S4x2048x4096_S8192x4096,
    unary main_v10 main_v11 (Host.absf : (⟨S8192x4096, .f32⟩ : BufTy).Contents (Elt F) → (⟨S8192x4096, .f32⟩ : BufTy).Contents (Elt F)),
    nullary main_cst_4 (constant S_ .f32 0xFF800000#32),
    binary main_v11 main_cst_4 main_v12 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    nullary main_cst_5 (constant S_ .f32 0x322BCC77#32),
    unary main_cst_5 main_call2_v0 ((id) : (⟨S_, .f32⟩ : BufTy).Contents (Elt F) → (⟨S_, .f32⟩ : BufTy).Contents (Elt F)),
    unary main_call2_v0 main_call2_v1 (((broadcastInDim S8192x1 ![] bcast_S_S8192x1)) : (⟨S_, .f32⟩ : BufTy).Contents (Elt F) → (⟨S8192x1, .f32⟩ : BufTy).Contents (Elt F)),
    binary main_call2_v1 main_v13 main_v14 ((maximumf) : (⟨S8192x1, .f32⟩ : BufTy).Contents (Elt F) → (⟨S8192x1, .f32⟩ : BufTy).Contents (Elt F) → (⟨S8192x1, .f32⟩ : BufTy).Contents (Elt F)),
    unary main_v14 main_v15 (broadcastInDim S8192x4096 ![0, 1] bcast_S8192x1_S8192x4096_0_1 : (⟨S8192x1, .f32⟩ : BufTy).Contents (Elt F) → (⟨S8192x4096, .f32⟩ : BufTy).Contents (Elt F)),
    binary main_v10 main_v15 main_v16 (Host.divf : (⟨S8192x4096, .f32⟩ : BufTy).Contents (Elt F) → (⟨S8192x4096, .f32⟩ : BufTy).Contents (Elt F) → (⟨S8192x4096, .f32⟩ : BufTy).Contents (Elt F)),
    nullary main_cst_6 (constant S_ .f32 0x42FE0000#32),
    unary main_cst_6 main_v17 (broadcastInDim S8192x4096 ![] bcast_S_S8192x4096 : (⟨S_, .f32⟩ : BufTy).Contents (Elt F) → (⟨S8192x4096, .f32⟩ : BufTy).Contents (Elt F)),
    binary main_v16 main_v17 main_v18 (mulf : (⟨S8192x4096, .f32⟩ : BufTy).Contents (Elt F) → (⟨S8192x4096, .f32⟩ : BufTy).Contents (Elt F) → (⟨S8192x4096, .f32⟩ : BufTy).Contents (Elt F)),
    unary main_v18 main_v19 ((Host.roundeven) : (⟨S8192x4096, .f32⟩ : BufTy).Contents (Elt F) → (⟨S8192x4096, .f32⟩ : BufTy).Contents (Elt F)),
    nullary main_cst_7 (constant S_ .f32 0x42FE0000#32),
    unary main_cst_7 main_v20 (broadcastInDim S8192x4096 ![] bcast_S_S8192x4096 : (⟨S_, .f32⟩ : BufTy).Contents (Elt F) → (⟨S8192x4096, .f32⟩ : BufTy).Contents (Elt F)),
    binary main_v19 main_v20 main_v21 (Host.divf : (⟨S8192x4096, .f32⟩ : BufTy).Contents (Elt F) → (⟨S8192x4096, .f32⟩ : BufTy).Contents (Elt F) → (⟨S8192x4096, .f32⟩ : BufTy).Contents (Elt F)),
    unary main_v14 main_v22 (broadcastInDim S8192x4096 ![0, 1] bcast_S8192x1_S8192x4096_0_1 : (⟨S8192x1, .f32⟩ : BufTy).Contents (Elt F) → (⟨S8192x4096, .f32⟩ : BufTy).Contents (Elt F)),
    binary main_v21 main_v22 main_v23 (mulf : (⟨S8192x4096, .f32⟩ : BufTy).Contents (Elt F) → (⟨S8192x4096, .f32⟩ : BufTy).Contents (Elt F) → (⟨S8192x4096, .f32⟩ : BufTy).Contents (Elt F)),
    unary main_v9 main_v24 ((transpose S4096x16384 [1, 0] · transposes_S16384x4096_S4096x16384_1_0) : (⟨S16384x4096, .f32⟩ : BufTy).Contents (Elt F) → (⟨S4096x16384, .f32⟩ : BufTy).Contents (Elt F)),
    binary main_v23 main_v24 main_v25 ((fun l r => Host.dotGeneral dot_S8192x4096_S4096x16384_S8192x16384_1_0_0_1_n_n none l r) : (⟨S8192x4096, .f32⟩ : BufTy).Contents (Elt F) → (⟨S4096x16384, .f32⟩ : BufTy).Contents (Elt F) → (⟨S8192x16384, .f32⟩ : BufTy).Contents (Elt F)),
    reshape main_v25 main_v26 rfl shapeCasts_S8192x16384_S4x2048x16384 ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., unary_bufs_sub .., nullary_bufs_sub .., binary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., binary_bufs_sub .., reshape_bufs_sub ..⟩

/-- What the result buffer holds: the product of the dequantised operands, reshaped. -/
def result (x : FVec F SX3 .f32) (w : FVec F SW .f32) : FVec F S4x2048x16384 .f32 :=
  shapeCast _ (Host.dotGeneral dot_S8192x4096_S4096x16384_S8192x16384_1_0_0_1_n_n none (actDeq x)
    (transpose S4096x16384 [1, 0] (wDeq w) transposes_S16384x4096_S4096x16384_1_0)) shapeCasts_S8192x16384_S4x2048x16384

set_option maxRecDepth 8192 in
set_option maxHeartbeats 2000000 in
/-- Every weakly fair execution of the reference terminates with the result buffer at `result` of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (by
        after_results_simp
        unfold result actDeq wDeq actInt wInt rowScale wScale xmat
        rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.Entries.lean ====
/-
  The entries of the two result matrices, as functions of the two arguments.

  Row r of the [8192, ·] matrices is position (b, s) = (r / 2048, r % 2048) of the [4, 2048, ·] arrays.
  `prodEntry r f` is what the first program leaves at (r, f): the integer product of the quantised activation row r with
  the ternary weight row f, times row r's factor g r / 127 · α.  `deqEntry r f` is what the second program leaves there:
  the product of the dequantised row a r · / 127 · g r with the dequantised weight row b f · · α.
-/
import proofs.«161110_j11570641895430_2_alg».proof.Proof.Stages
import Idealize.ShloMosaic.Lib.ValueIdx

noncomputable section

namespace Cert.BitLinear

open Idealize.ShloMosaic Idealize.ShloMosaic.ValueIdx

/-- Entry (r, f) of the first program's result matrix. -/
def prodEntry (X : FVec Ideal SX3 .f32) (W : FVec Ideal SW .f32) (r : Fin 8192) (f : Fin 16384) : EReal :=
  (∑ k : Fin 4096, actInt X (ix2 r k) * wInt W (ix2 f k)) * rowFactor X W (ix2 r (0 : Fin 1))

/-- Entry (r, f) of the second program's result matrix. -/
def deqEntry (X : FVec Ideal SX3 .f32) (W : FVec Ideal SW .f32) (r : Fin 8192) (f : Fin 16384) : EReal :=
  ∑ k : Fin 4096, actDeq X (ix2 r k) * wDeq W (ix2 f k)

/-- The row of the [8192, ·] matrices that position (b, s) of the [4, 2048, ·] arrays is. -/
def rowOf (b : Fin 4) (s : Fin 2048) : Fin 8192 := ⟨b.val * 2048 + s.val, by have := b.isLt; have := s.isLt; omega⟩

end Cert.BitLinear

end
-- ==== Proof.RefValue.lean ====
/-
  The reference's result, entry by entry.

  The result array is the [8192, 16384] product of the dequantised activations with the transposed dequantised
  weights, viewed as [4, 2048, 16384]: entry (b, s, f) is entry (b · 2048 + s, f) of the product, and that is the sum
  over the 4096 columns k of (dequantised activation at (row, k)) times (dequantised weight at (f, k)) — the transpose
  only swaps the weight's two coordinates.
-/
import proofs.«161110_j11570641895430_2_alg».proof.Proof.RefRun
import proofs.«161110_j11570641895430_2_alg».proof.Proof.Entries
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.BitLinear
open Cert.ReferenceIdeal.RefRun

/-- The left operand's row coordinate is the output's row. -/
theorem lhs_0 (i : S8192x16384.Idx) (κ : dot_S8192x4096_S4096x16384_S8192x16384_1_0_0_1_n_n.contr.Idx) : (dot_S8192x4096_S4096x16384_S8192x16384_1_0_0_1_n_n.lhsIdx i κ 0).val = (i 0).val := by
  unfold DotDims.lhsIdx
  rw [dif_neg (show ¬(0 : Fin S8192x4096.rank) ∈ dot_S8192x4096_S4096x16384_S8192x16384_1_0_0_1_n_n.lhsBatch by decide), dif_pos (show (0 : Fin S8192x4096.rank) ∈ dot_S8192x4096_S4096x16384_S8192x16384_1_0_0_1_n_n.lhsNonContracting by decide)]
  rfl
/-- The left operand's column coordinate is the contracted one. -/
theorem lhs_1 (i : S8192x16384.Idx) (κ : dot_S8192x4096_S4096x16384_S8192x16384_1_0_0_1_n_n.contr.Idx) : (dot_S8192x4096_S4096x16384_S8192x16384_1_0_0_1_n_n.lhsIdx i κ 1).val = (κ ⟨0, by decide⟩).val :=
  dot_S8192x4096_S4096x16384_S8192x16384_1_0_0_1_n_n.lhsIdx_val_of_single rfl i κ
/-- The right operand's row coordinate is the contracted one. -/
theorem rhs_0 (i : S8192x16384.Idx) (κ : dot_S8192x4096_S4096x16384_S8192x16384_1_0_0_1_n_n.contr.Idx) : (dot_S8192x4096_S4096x16384_S8192x16384_1_0_0_1_n_n.rhsIdx i κ 0).val = (κ ⟨0, by decide⟩).val :=
  dot_S8192x4096_S4096x16384_S8192x16384_1_0_0_1_n_n.rhsIdx_val_of_single rfl i κ
/-- The right operand's column coordinate is the output's column. -/
theorem rhs_1 (i : S8192x16384.Idx) (κ : dot_S8192x4096_S4096x16384_S8192x16384_1_0_0_1_n_n.contr.Idx) : (dot_S8192x4096_S4096x16384_S8192x16384_1_0_0_1_n_n.rhsIdx i κ 1).val = (i 1).val := by
  unfold DotDims.rhsIdx
  rw [dif_neg (show ¬(1 : Fin S4096x16384.rank) ∈ dot_S8192x4096_S4096x16384_S8192x16384_1_0_0_1_n_n.rhsBatch by decide), dif_pos (show (1 : Fin S4096x16384.rank) ∈ dot_S8192x4096_S4096x16384_S8192x16384_1_0_0_1_n_n.rhsNonContracting by decide)]
  rfl

/-- The left operand's index for output (r, f) and contracted coordinate k is (r, k). -/
theorem lhsIdx_eq (r : Fin 8192) (f : Fin 16384) (k : Fin 4096) :
    dot_S8192x4096_S4096x16384_S8192x16384_1_0_0_1_n_n.lhsIdx (ix2 r f) ((contrEquiv1 dot_S8192x4096_S4096x16384_S8192x16384_1_0_0_1_n_n 4096 rfl rfl).symm k) = ix2 r k :=
  funext fun a => Fin.ext (by
    have hk := contrEquiv1_symm_val dot_S8192x4096_S4096x16384_S8192x16384_1_0_0_1_n_n 4096 rfl rfl k
    match a with
    | ⟨0, _⟩ => exact lhs_0 _ _
    | ⟨1, _⟩ => exact (lhs_1 _ _).trans hk)

/-- The right operand's index for output (r, f) and contracted coordinate k is (k, f). -/
theorem rhsIdx_eq (r : Fin 8192) (f : Fin 16384) (k : Fin 4096) :
    dot_S8192x4096_S4096x16384_S8192x16384_1_0_0_1_n_n.rhsIdx (ix2 r f) ((contrEquiv1 dot_S8192x4096_S4096x16384_S8192x16384_1_0_0_1_n_n 4096 rfl rfl).symm k) = ix2 k f :=
  funext fun a => Fin.ext (by
    have hk := contrEquiv1_symm_val dot_S8192x4096_S4096x16384_S8192x16384_1_0_0_1_n_n 4096 rfl rfl k
    match a with
    | ⟨0, _⟩ => exact (rhs_0 _ _).trans hk
    | ⟨1, _⟩ => exact rhs_1 _ _)

/-- Entry (b, s, f) of the reference's result. -/
theorem result_apply (X : FVec Ideal SX3 .f32) (W : FVec Ideal SW .f32) (b : Fin 4) (s : Fin 2048) (f : Fin 16384) :
    result (F := Ideal) X W (ix3 b s f) = deqEntry X W (rowOf b s) f := by
  unfold result
  refine (shapeCast_apply _ shapeCasts_S8192x16384_S4x2048x16384 (ix3 b s f) (ix2 (rowOf b s) f) (by
    rw [Shape.rowMajor_val_two, Shape.rowMajor_val_three]; rfl)).trans ?_
  simp only [Host.dotGeneral]
  rw [Ideal.dotGeneral_apply, ← Equiv.sum_comp (contrEquiv1 dot_S8192x4096_S4096x16384_S8192x16384_1_0_0_1_n_n 4096 rfl rfl).symm]
  unfold deqEntry
  refine Finset.sum_congr rfl fun k _ => ?_
  rw [lhsIdx_eq, rhsIdx_eq]
  have e : transpose S4096x16384 [1, 0] (wDeq W) transposes_S16384x4096_S4096x16384_1_0 (ix2 k f) = wDeq W (ix2 f k) :=
    transpose_apply [1, 0] (wDeq W) transposes_S16384x4096_S4096x16384_1_0 (ix2 k f) (ix2 f k) (fun a => match a with
      | ⟨0, _⟩ => rfl
      | ⟨1, _⟩ => rfl)
  rw [e]

end Cert.ReferenceIdeal.RefValue

end
-- ==== Proof.KernelHost.lean ====
/-
  What the kernel's launch finds in its three operand arrays.

  Before the launch the program computes, by 40 array operations, the quantised activations (cast to the narrow
  format), the ternary weights (cast likewise) and the per-row factor column. Listed in order, the helper functions'
  lines as ordinary operations on their calls' buffers, they leave each operand array at the corresponding stage of
  the shared arithmetic applied to the two arguments as launched.
-/
import proofs.«161110_j11570641895430_2_alg».proof.Proof.Gen.KernelIdeal.Frame
import proofs.«161110_j11570641895430_2_alg».proof.Proof.Stages
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Cert.BitLinear

variable {F : FTy → Type} [FloatOps F]
variable (m : (ℓ : Loc nD τ sig) → Buf (Elt F) ℓ)

/-- The 40 operations before the launch, in program order. -/
abbrev preOps : List (HloOp τ sig (Elt F)) :=
  [ StableHlo.reshape main_arg0 main_v0 rfl shapeCasts_S4x2048x4096_S8192x4096,
    StableHlo.unary main_v0 main_v1 (Host.absf : (⟨S8192x4096, .f32⟩ : BufTy).Contents (Elt F) → (⟨S8192x4096, .f32⟩ : BufTy).Contents (Elt F)),
    StableHlo.nullary main_cst (constant S_ .f32 0xFF800000#32),
    StableHlo.binary main_v1 main_cst main_v2 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x322BCC77#32),
    StableHlo.unary main_cst_0 main_call0_v0 ((id) : (⟨S_, .f32⟩ : BufTy).Contents (Elt F) → (⟨S_, .f32⟩ : BufTy).Contents (Elt F)),
    StableHlo.unary main_call0_v0 main_call0_v1 (((broadcastInDim S8192x1 ![] bcast_S_S8192x1)) : (⟨S_, .f32⟩ : BufTy).Contents (Elt F) → (⟨S8192x1, .f32⟩ : BufTy).Contents (Elt F)),
    StableHlo.binary main_call0_v1 main_v3 main_v4 ((maximumf) : (⟨S8192x1, .f32⟩ : BufTy).Contents (Elt F) → (⟨S8192x1, .f32⟩ : BufTy).Contents (Elt F) → (⟨S8192x1, .f32⟩ : BufTy).Contents (Elt F)),
    StableHlo.unary main_v4 main_v5 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v0 main_v5 main_v6 (Host.divf : (⟨S8192x4096, .f32⟩ : BufTy).Contents (Elt F) → (⟨S8192x4096, .f32⟩ : BufTy).Contents (Elt F) → (⟨S8192x4096, .f32⟩ : BufTy).Contents (Elt F)),
    StableHlo.nullary main_cst_1 (constant S_ .f32 0x42FE0000#32),
    StableHlo.unary main_cst_1 main_v7 (broadcastInDim S8192x4096 ![] bcast_S_S8192x4096 : (⟨S_, .f32⟩ : BufTy).Contents (Elt F) → (⟨S8192x4096, .f32⟩ : BufTy).Contents (Elt F)),
    StableHlo.binary main_v6 main_v7 main_v8 (mulf : (⟨S8192x4096, .f32⟩ : BufTy).Contents (Elt F) → (⟨S8192x4096, .f32⟩ : BufTy).Contents (Elt F) → (⟨S8192x4096, .f32⟩ : BufTy).Contents (Elt F)),
    StableHlo.unary main_v8 main_v9 ((Host.roundeven) : (⟨S8192x4096, .f32⟩ : BufTy).Contents (Elt F) → (⟨S8192x4096, .f32⟩ : BufTy).Contents (Elt F)),
    StableHlo.unary main_v9 main_v10 ((truncf .bf16 · bitsLt_bf16_f32) : (⟨S8192x4096, .f32⟩ : BufTy).Contents (Elt F) → (⟨S8192x4096, .bf16⟩ : BufTy).Contents (Elt F)),
    StableHlo.unary main_arg1 main_v11 (Host.absf : (⟨S16384x4096, .f32⟩ : BufTy).Contents (Elt F) → (⟨S16384x4096, .f32⟩ : BufTy).Contents (Elt F)),
    StableHlo.nullary main_cst_2 (constant S_ .f32 0x00000000#32),
    StableHlo.binary main_v11 main_cst_2 main_v12 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    StableHlo.nullary main_cst_3 (constant S_ .f32 0x4C800000#32),
    StableHlo.binary main_v12 main_cst_3 main_v13 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x322BCC77#32),
    StableHlo.binary main_v13 main_cst_4 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S16384x4096 ![] bcast_S_S16384x4096 : (⟨S_, .f32⟩ : BufTy).Contents (Elt F) → (⟨S16384x4096, .f32⟩ : BufTy).Contents (Elt F)),
    StableHlo.binary main_arg1 main_v15 main_v16 (Host.divf : (⟨S16384x4096, .f32⟩ : BufTy).Contents (Elt F) → (⟨S16384x4096, .f32⟩ : BufTy).Contents (Elt F) → (⟨S16384x4096, .f32⟩ : BufTy).Contents (Elt F)),
    StableHlo.unary main_v16 main_v17 ((Host.roundeven) : (⟨S16384x4096, .f32⟩ : BufTy).Contents (Elt F) → (⟨S16384x4096, .f32⟩ : BufTy).Contents (Elt F)),
    StableHlo.nullary main_cst_5 (constant S_ .f32 0xBF800000#32),
    StableHlo.nullary main_cst_6 (constant S_ .f32 0x3F800000#32),
    StableHlo.unary main_cst_5 main_call3_v0 ((id) : (⟨S_, .f32⟩ : BufTy).Contents (Elt F) → (⟨S_, .f32⟩ : BufTy).Contents (Elt F)),
    StableHlo.unary main_call3_v0 main_call3_v1 (((broadcastInDim S16384x4096 ![] bcast_S_S16384x4096)) : (⟨S_, .f32⟩ : BufTy).Contents (Elt F) → (⟨S16384x4096, .f32⟩ : BufTy).Contents (Elt F)),
    StableHlo.binary main_call3_v1 main_v17 main_call3_v2 ((maximumf) : (⟨S16384x4096, .f32⟩ : BufTy).Contents (Elt F) → (⟨S16384x4096, .f32⟩ : BufTy).Contents (Elt F) → (⟨S16384x4096, .f32⟩ : BufTy).Contents (Elt F)),
    StableHlo.unary main_cst_6 main_call3_v3 ((id) : (⟨S_, .f32⟩ : BufTy).Contents (Elt F) → (⟨S_, .f32⟩ : BufTy).Contents (Elt F)),
    StableHlo.unary main_call3_v3 main_call3_v4 (((broadcastInDim S16384x4096 ![] bcast_S_S16384x4096)) : (⟨S_, .f32⟩ : BufTy).Contents (Elt F) → (⟨S16384x4096, .f32⟩ : BufTy).Contents (Elt F)),
    StableHlo.binary main_call3_v4 main_call3_v2 main_v18 ((minimumf) : (⟨S16384x4096, .f32⟩ : BufTy).Contents (Elt F) → (⟨S16384x4096, .f32⟩ : BufTy).Contents (Elt F) → (⟨S16384x4096, .f32⟩ : BufTy).Contents (Elt F)),
    StableHlo.unary main_v18 main_v19 ((truncf .bf16 · bitsLt_bf16_f32) : (⟨S16384x4096, .f32⟩ : BufTy).Contents (Elt F) → (⟨S16384x4096, .bf16⟩ : BufTy).Contents (Elt F)),
    StableHlo.nullary main_cst_7 (constant S_ .f32 0x42FE0000#32),
    StableHlo.unary main_cst_7 main_v20 (broadcastInDim S8192x1 ![] bcast_S_S8192x1 : (⟨S_, .f32⟩ : BufTy).Contents (Elt F) → (⟨S8192x1, .f32⟩ : BufTy).Contents (Elt F)),
    StableHlo.binary main_v4 main_v20 main_v21 (Host.divf : (⟨S8192x1, .f32⟩ : BufTy).Contents (Elt F) → (⟨S8192x1, .f32⟩ : BufTy).Contents (Elt F) → (⟨S8192x1, .f32⟩ : BufTy).Contents (Elt F)),
    StableHlo.unary main_v14 main_v22 (broadcastInDim S8192x1 ![] bcast_S_S8192x1 : (⟨S_, .f32⟩ : BufTy).Contents (Elt F) → (⟨S8192x1, .f32⟩ : BufTy).Contents (Elt F)),
    StableHlo.binary main_v21 main_v22 main_v23 (mulf : (⟨S8192x1, .f32⟩ : BufTy).Contents (Elt F) → (⟨S8192x1, .f32⟩ : BufTy).Contents (Elt F) → (⟨S8192x1, .f32⟩ : BufTy).Contents (Elt F)) ]

set_option maxRecDepth 8192 in
/-- The contents the launch finds are the fold of those operations over the launch memory. -/
theorem V0_eq (c : Dev nD) : V0 m c = after preOps (fun b => m (c, b)) := rfl

set_option maxRecDepth 8192 in
set_option maxHeartbeats 2000000 in
/-- Operand 0 holds the quantised activations, cast. -/
theorem V_act (c : Dev nD) :
    V m c main_v10 = truncf .bf16 (actInt (m ((c.tc : Thread nD τ).loc main_arg0))) bitsLt_bf16_f32 := by
  show V0 m c (Proc.devRef .tc main_v10) = _
  rw [V0_eq]
  after_results_simp
  unfold actInt rowScale xmat
  rfl

set_option maxRecDepth 8192 in
set_option maxHeartbeats 2000000 in
/-- Operand 1 holds the ternary weights, cast. -/
theorem V_wgt (c : Dev nD) :
    V m c main_v19 = truncf .bf16 (wInt (m ((c.tc : Thread nD τ).loc main_arg1))) bitsLt_bf16_f32 := by
  show V0 m c (Proc.devRef .tc main_v19) = _
  rw [V0_eq]
  after_results_simp
  unfold wInt wScale
  rfl

set_option maxRecDepth 8192 in
set_option maxHeartbeats 2000000 in
/-- Operand 2 holds the per-row factor column. -/
theorem V_fac (c : Dev nD) :
    V m c main_v23 = rowFactor (m ((c.tc : Thread nD τ).loc main_arg0)) (m ((c.tc : Thread nD τ).loc main_arg1)) := by
  show V0 m c (Proc.devRef .tc main_v23) = _
  rw [V0_eq]
  after_results_simp
  unfold rowFactor rowScale wScale xmat
  rfl

end Cert.KernelIdeal.HostValue

end
-- ==== Proof.LibReadAtIndex.lean ====
/-
  Three readings at an index that a kernel with a `keepdims` row reduction and matrix products needs.

  * A vector of length a cast to a column [a, 1] has, at (i, 0), the vector's entry i.
  * A column [a, 1] broadcast to [a, b] has, at (p, c), the column's entry p — every row is constant.
  * A matrix product with ONE contracted axis of extent n, accumulated into zero, has at an output index j the sum over
    k < n of the left operand at L k times the right operand at R k, where L k and R k are the operand indices the
    product's dimension numbers assign to j and k. Over the extended reals the zero accumulator adds nothing and the
    sum has no order.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ReadAtIndex

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A matrix product with one contracted axis of extent `n`, into the zero accumulator, read at `j`: the sum over the
    axis's coordinates of the operands' products at the indices the dimension numbers name. -/
theorem matmul_zero_sum {sl sr so : Shape} {φ₁ φ₂ : FTy} (D : DotDims sl sr so) (n : ℕ) (hr : D.contr.rank = 1)
    (hs : D.contr.size ⟨0, by omega⟩ = n) (prec : Option ContractPrecision)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl, hr']

end Cert.ReadAtIndex

end
-- ==== Proof.KernelBlock.lean ====
/-
  What the kernel body stores at one grid point, entry by entry.

  The body loads a block of 256 activation rows, a block of 1024 weight rows and the 256 row factors, multiplies the
  first by the transpose of the second (contracting the 4096 columns, into a zero accumulator) and scales row p of the
  product by factor p. So entry (p, q) of what it stores is  (Σ_k xb p k · wb q k) · sb p.  When the three blocks are
  rows r, features f and row r of the quantised activations, the ternary weights and the factor column, that is the
  entry `prodEntry r f` of the whole product.
-/
import proofs.«161110_j11570641895430_2_alg».proof.Proof.Gen.KernelIdeal.Skeleton
import proofs.«161110_j11570641895430_2_alg».proof.Proof.LibReadAtIndex
import proofs.«161110_j11570641895430_2_alg».proof.Proof.Entries
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.BitLinear

/-- The left operand's row coordinate is the output's row. -/
theorem lhs_0 (i : S256x1024.Idx) (κ : dot_S256x4096_S1024x4096_S256x1024_1_1_0_0_n_n.contr.Idx) : (dot_S256x4096_S1024x4096_S256x1024_1_1_0_0_n_n.lhsIdx i κ 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- The left operand's column coordinate is the contracted one. -/
theorem lhs_1 (i : S256x1024.Idx) (κ : dot_S256x4096_S1024x4096_S256x1024_1_1_0_0_n_n.contr.Idx) : (dot_S256x4096_S1024x4096_S256x1024_1_1_0_0_n_n.lhsIdx i κ 1).val = (κ ⟨0, by decide⟩).val :=
  dot_S256x4096_S1024x4096_S256x1024_1_1_0_0_n_n.lhsIdx_val_of_single rfl i κ
/-- The right operand's row coordinate is the output's column. -/
theorem rhs_0 (i : S256x1024.Idx) (κ : dot_S256x4096_S1024x4096_S256x1024_1_1_0_0_n_n.contr.Idx) : (dot_S256x4096_S1024x4096_S256x1024_1_1_0_0_n_n.rhsIdx i κ 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- The right operand's column coordinate is the contracted one. -/
theorem rhs_1 (i : S256x1024.Idx) (κ : dot_S256x4096_S1024x4096_S256x1024_1_1_0_0_n_n.contr.Idx) : (dot_S256x4096_S1024x4096_S256x1024_1_1_0_0_n_n.rhsIdx i κ 1).val = (κ ⟨0, by decide⟩).val :=
  dot_S256x4096_S1024x4096_S256x1024_1_1_0_0_n_n.rhsIdx_val_of_single rfl i κ

/-- The left operand's index for output (p, q) and contracted coordinate k is (p, k). -/
theorem lhsIdx_eq (p : Fin 256) (q : Fin 1024) (k : Fin 4096) :
    dot_S256x4096_S1024x4096_S256x1024_1_1_0_0_n_n.lhsIdx (ix2 p q) ((contrEquiv1 dot_S256x4096_S1024x4096_S256x1024_1_1_0_0_n_n 4096 rfl rfl).symm k) = ix2 p k :=
  funext fun a => Fin.ext (by
    have hk := contrEquiv1_symm_val dot_S256x4096_S1024x4096_S256x1024_1_1_0_0_n_n 4096 rfl rfl k
    match a with
    | ⟨0, _⟩ => exact lhs_0 _ _
    | ⟨1, _⟩ => exact (lhs_1 _ _).trans hk)

/-- The right operand's index for output (p, q) and contracted coordinate k is (q, k). -/
theorem rhsIdx_eq (p : Fin 256) (q : Fin 1024) (k : Fin 4096) :
    dot_S256x4096_S1024x4096_S256x1024_1_1_0_0_n_n.rhsIdx (ix2 p q) ((contrEquiv1 dot_S256x4096_S1024x4096_S256x1024_1_1_0_0_n_n 4096 rfl rfl).symm k) = ix2 q k :=
  funext fun a => Fin.ext (by
    have hk := contrEquiv1_symm_val dot_S256x4096_S1024x4096_S256x1024_1_1_0_0_n_n 4096 rfl rfl k
    match a with
    | ⟨0, _⟩ => exact rhs_0 _ _
    | ⟨1, _⟩ => exact (rhs_1 _ _).trans hk)

/-- Entry (p, q) of what the body stores. -/
theorem pay_apply (xb : FVec Ideal S256x4096 .bf16) (wb : FVec Ideal S1024x4096 .bf16) (sb : FVec Ideal S256x1 .f32)
    (p : Fin 256) (q : Fin 1024) :
    k0_pay1 (F := Ideal) xb wb sb (ix2 p q) = (∑ k : Fin 4096, xb (ix2 p k) * wb (ix2 q k)) * sb (ix2 p (0 : Fin 1)) := by
  unfold k0_pay1
  show (matmul dot_S256x4096_S1024x4096_S256x1024_1_1_0_0_n_n none (shapeCast S256x4096 xb shapeCasts_S256x4096_S256x4096) (shapeCast S1024x4096 wb shapeCasts_S1024x4096_S1024x4096) (constant S256x1024 .f32 0x00000000#32)) (ix2 p q)
      * (broadcastTo S256x1024 (shapeCast S256x1 sb shapeCasts_S256x1_S256x1) broadcasts_S256x1_S256x1024) (ix2 p q) = _
  refine congrArg₂ (· * ·) ?_ ?_
  · refine (Cert.ReadAtIndex.matmul_zero_sum dot_S256x4096_S1024x4096_S256x1024_1_1_0_0_n_n 4096 rfl rfl none _ _ (ix2 p q) (fun k => ix2 p k) (fun k => ix2 q k)
      (lhsIdx_eq p q) (rhsIdx_eq p q)).trans ?_
    refine Finset.sum_congr rfl fun k _ => ?_
    rw [shapeCast_self, shapeCast_self]
  · refine (Cert.ReadAtIndex.broadcastTo_a1_ab_apply _ broadcasts_S256x1_S256x1024 p q).trans ?_
    rw [shapeCast_self]

/-- The stored entry (p, q) is entry (r, f) of the whole product when the loaded blocks are rows r, f, r of the three
    operand matrices. -/
theorem point_value (X : FVec Ideal SX3 .f32) (W : FVec Ideal SW .f32)
    (xb : FVec Ideal S256x4096 .bf16) (wb : FVec Ideal S1024x4096 .bf16) (sb : FVec Ideal S256x1 .f32)
    (r : Fin 8192) (f : Fin 16384) (p : Fin 256) (q : Fin 1024)
    (hx : ∀ k : Fin 4096, xb (ix2 p k) = actInt X (ix2 r k))
    (hw : ∀ k : Fin 4096, wb (ix2 q k) = wInt W (ix2 f k))
    (hs : sb (ix2 p (0 : Fin 1)) = rowFactor X W (ix2 r (0 : Fin 1))) :
    k0_pay1 (F := Ideal) xb wb sb (ix2 p q) = prodEntry X W r f := by
  refine (pay_apply xb wb sb p q).trans ?_
  unfold prodEntry
  rw [hs]
  exact congrArg (· * _) (Finset.sum_congr rfl fun k _ => by rw [hx, hw])

end Cert.KernelIdeal.BlockValue

end
-- ==== Proof.KernelIdx.lean ====
/-
  How the launch's blocks lie in the result: which block each grid point reads and writes, that an index of the
  result is in a point's block exactly when each coordinate is in the block's range, and that the 32 × 16 blocks
  cover the result.
-/
import proofs.«161110_j11570641895430_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

theorem hz : (![0, 0] : Fin 2 → Nat) = fun _ => 0 := funext fun a => by fin_cases a <;> rfl

/-- The block indices at grid point `t`, in closed form: the activations' and the factors' row block and the result's
    row block are t mod 32, the weights' row block and the result's column block are t div 32, the operands' column
    block is 0. -/
theorem idx_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = t.val / 32 :=
  (by decide +kernel : ∀ t : Fin grid0.N, _)

/-- An index of the result is in point `t`'s block iff each coordinate is in the block's range on its axis. -/
theorem mem_blk (t : Fin cfg0.N) (i : S8192x16384.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v24).slice (win0_3.rect t)).set ↔ _
  rw [View.set_slice_whole, Rect.mem_set_unit]
  exact Iff.rfl

/-- Every index of the result is in some point's block: point (i₁ / 1024) · 32 + i₀ / 256, whose row block is i₀ / 256
    and column block i₁ / 1024. -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 512 := N_0
  have hlt : (i 1).val / 1024 * 32 + (i 0).val / 256 < cfg0.N := by rw [hN]; omega
  obtain ⟨_, _, _, _, _, _, e30, e31⟩ := idx_facts ⟨(i 1).val / 1024 * 32 + (i 0).val / 256, hlt⟩
  have q0 : win0_3.index ⟨(i 1).val / 1024 * 32 + (i 0).val / 256, hlt⟩ (0 : Fin 2) = (i 0).val / 256 := by
    rw [e30]; show ((i 1).val / 1024 * 32 + (i 0).val / 256) % 32 = (i 0).val / 256; omega
  have q1 : win0_3.index ⟨(i 1).val / 1024 * 32 + (i 0).val / 256, hlt⟩ (1 : Fin 2) = (i 1).val / 1024 := by
    rw [e31]; show ((i 1).val / 1024 * 32 + (i 0).val / 256) / 32 = (i 1).val / 1024; omega
  generalize (⟨(i 1).val / 1024 * 32 + (i 0).val / 256, hlt⟩ : Fin cfg0.N) = t at q0 q1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

end Cert.KernelIdeal.ArrayValue

end
-- ==== Proof.KernelFlush.lean ====
/-
  What one grid point writes back is its block of the whole product.

  Grid point t = 32·n + m loads activation rows 256·m … 256·m + 255, weight rows 1024·n … 1024·n + 1023 and the factors
  of the same 256 activation rows, and writes back the block of the [8192, 16384] result at rows 256·m …, columns
  1024·n …: every entry it writes is the entry `prodEntry` of the whole product at that row and column. A block read of
  an array is the array at the block's first index plus the index inside the block, on each axis.
-/
import proofs.«161110_j11570641895430_2_alg».proof.Proof.Gen.KernelIdeal.Frame
import proofs.«161110_j11570641895430_2_alg».proof.Proof.KernelHost
import proofs.«161110_j11570641895430_2_alg».proof.Proof.KernelBlock
import proofs.«161110_j11570641895430_2_alg».proof.Proof.KernelIdx
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.BitLinear Cert.KernelIdeal.HostValue Cert.KernelIdeal.BlockValue

variable (m : (ℓ : Loc nD τ sig) → Buf (Elt Ideal) ℓ)

/-- The first program's result as an [8192, 16384] matrix. -/
def prodMat (X : FVec Ideal SX3 .f32) (W : FVec Ideal SW .f32) : S8192x16384.Idx → Elt Ideal .f32 :=
  fun j => prodEntry X W (j 0) (j 1)

/-! ## The operand arrays as the launch finds them, named as the windows name them -/

theorem A_act (c : Dev nD) :
    V m c (Pipeline.arrRef spec0 0) = truncf .bf16 (actInt (F := Ideal) (m ((c.tc : Thread nD τ).loc main_arg0))) bitsLt_bf16_f32 := V_act m c
theorem A_wgt (c : Dev nD) :
    V m c (Pipeline.arrRef spec0 1) = truncf .bf16 (wInt (F := Ideal) (m ((c.tc : Thread nD τ).loc main_arg1))) bitsLt_bf16_f32 := V_wgt m c
theorem A_fac (c : Dev nD) :
    V m c (Pipeline.arrRef spec0 2) = rowFactor (F := Ideal) (m ((c.tc : Thread nD τ).loc main_arg0)) (m ((c.tc : Thread nD τ).loc main_arg1)) := V_fac m c

/-! ## A block read of any array is the array at the embedded index -/

theorem read0 (c : Dev nD) (A : Buf (Elt Ideal) ((c.tc : Thread nD τ).loc main_v10)) (t : Fin cfg0.N)
    (y : ((cfg0.win 0).xblock (grid0.coords t)).Idx) :
    ((cfg0.win 0).blk t).view.read (Elt Ideal) A y = A (((cfg0.win 0).blk t).view.emb y) := rfl
theorem read1 (c : Dev nD) (A : Buf (Elt Ideal) ((c.tc : Thread nD τ).loc main_v19)) (t : Fin cfg0.N)
    (y : ((cfg0.win 1).xblock (grid0.coords t)).Idx) :
    ((cfg0.win 1).blk t).view.read (Elt Ideal) A y = A (((cfg0.win 1).blk t).view.emb y) := rfl
theorem read2 (c : Dev nD) (A : Buf (Elt Ideal) ((c.tc : Thread nD τ).loc main_v23)) (t : Fin cfg0.N)
    (y : ((cfg0.win 2).xblock (grid0.coords t)).Idx) :
    ((cfg0.win 2).blk t).view.read (Elt Ideal) A y = A (((cfg0.win 2).blk t).view.emb y) := rfl
theorem read3 (c : Dev nD) (A : Buf (Elt Ideal) ((c.tc : Thread nD τ).loc main_v24)) (t : Fin cfg0.N)
    (y : ((cfg0.win 3).xblock (grid0.coords t)).Idx) :
    ((cfg0.win 3).blk t).view.read (Elt Ideal) A y = A (((cfg0.win 3).blk t).view.emb y) := rfl

attribute [local irreducible] actInt wInt rowFactor prodEntry

/-- Row p of the activations' block at point `t` is row r of the quantised activations, r the block's first row plus p. -/
theorem blk_act (c : Dev nD) (t : Fin cfg0.N) (p : Fin 256) (k : Fin 4096) (r : Fin 8192)
    (hr : r.val = win0_3.index t (0 : Fin 2) * 256 + p.val) :
    ((cfg0.win 0).blk t).view.read (Elt Ideal) (truncf .bf16 (actInt (F := Ideal) (m ((c.tc : Thread nD τ).loc main_arg0))) bitsLt_bf16_f32) (ix2 p k)
      = actInt (F := Ideal) (m ((c.tc : Thread nD τ).loc main_arg0)) (ix2 r k) := by
  obtain ⟨e00, e01, -, -, -, -, e30, -⟩ := idx_facts t
  refine (read0 c _ t _).trans ?_
  refine (truncf_apply (actInt (F := Ideal) (m ((c.tc : Thread nD τ).loc main_arg0))) bitsLt_bf16_f32 _).trans ?_
  refine congrArg (actInt (F := Ideal) (m ((c.tc : Thread nD τ).loc main_arg0))) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- Row q of the weights' block at point `t` is row f of the ternary weights, f the block's first row plus q. -/
theorem blk_wgt (c : Dev nD) (t : Fin cfg0.N) (q : Fin 1024) (k : Fin 4096) (f : Fin 16384)
    (hf : f.val = win0_3.index t (1 : Fin 2) * 1024 + q.val) :
    ((cfg0.win 1).blk t).view.read (Elt Ideal) (truncf .bf16 (wInt (F := Ideal) (m ((c.tc : Thread nD τ).loc main_arg1))) bitsLt_bf16_f32) (ix2 q k)
      = wInt (F := Ideal) (m ((c.tc : Thread nD τ).loc main_arg1)) (ix2 f k) := by
  obtain ⟨-, -, e10, e11, -, -, -, e31⟩ := idx_facts t
  refine (read1 c _ t _).trans ?_
  refine (truncf_apply (wInt (F := Ideal) (m ((c.tc : Thread nD τ).loc main_arg1))) bitsLt_bf16_f32 _).trans ?_
  refine congrArg (wInt (F := Ideal) (m ((c.tc : Thread nD τ).loc main_arg1))) (funext fun a => Fin.ext ?_)
  match a with
  | ⟨0, _⟩ => show win0_1.index t (0 : Fin 2) * 1024 + 1 * q.val = f.val; omega
  | ⟨1, _⟩ => show win0_1.index t (1 : Fin 2) * 4096 + 1 * k.val = k.val; omega

/-- Entry p of the factors' block at point `t` is the factor of row r. -/
theorem blk_fac (c : Dev nD) (t : Fin cfg0.N) (p : Fin 256) (r : Fin 8192)
    (hr : r.val = win0_3.index t (0 : Fin 2) * 256 + p.val) :
    ((cfg0.win 2).blk t).view.read (Elt Ideal) (rowFactor (F := Ideal) (m ((c.tc : Thread nD τ).loc main_arg0)) (m ((c.tc : Thread nD τ).loc main_arg1))) (ix2 p (0 : Fin 1))
      = rowFactor (F := Ideal) (m ((c.tc : Thread nD τ).loc main_arg0)) (m ((c.tc : Thread nD τ).loc main_arg1)) (ix2 r (0 : Fin 1)) := by
  obtain ⟨-, -, -, -, e20, e21, e30, -⟩ := idx_facts t
  refine (read2 c _ t _).trans ?_
  refine congrArg (rowFactor (F := Ideal) (m ((c.tc : Thread nD τ).loc main_arg0)) (m ((c.tc : Thread nD τ).loc main_arg1))) (funext fun a => Fin.ext ?_)
  match a with
  | ⟨0, _⟩ => show win0_2.index t (0 : Fin 2) * 256 + 1 * p.val = r.val; omega
  | ⟨1, _⟩ => show win0_2.index t (1 : Fin 2) * 1 + 1 * 0 = 0; omega

/-- Entry (p, q) of the result's block at point `t` is entry (r, f) of the whole product. -/
theorem blk_out (c : Dev nD) (t : Fin cfg0.N) (p : Fin 256) (q : Fin 1024) (r : Fin 8192) (f : Fin 16384)
    (hr : r.val = win0_3.index t (0 : Fin 2) * 256 + p.val) (hf : f.val = win0_3.index t (1 : Fin 2) * 1024 + q.val) :
    ((cfg0.win 3).blk t).view.read (Elt Ideal) (prodMat (m ((c.tc : Thread nD τ).loc main_arg0)) (m ((c.tc : Thread nD τ).loc main_arg1))) (ix2 p q) = prodEntry (m ((c.tc : Thread nD τ).loc main_arg0)) (m ((c.tc : Thread nD τ).loc main_arg1)) r f := by
  refine (read3 c _ t _).trans ?_
  unfold prodMat
  refine congrArg₂ (prodEntry (m ((c.tc : Thread nD τ).loc main_arg0)) (m ((c.tc : Thread nD τ).loc main_arg1))) (Fin.ext ?_) (Fin.ext ?_)
  · show win0_3.index t (0 : Fin 2) * 256 + 1 * p.val = r.val; omega
  · show win0_3.index t (1 : Fin 2) * 1024 + 1 * q.val = f.val; omega

/-- What point `t` writes back is block `t` of the whole product. -/
theorem flushed_eq (c : Dev nD) (t : Fin cfg0.N) :
    (dats m 0 c).flushed 3 t = ((cfg0.win 3).blk t).view.read (Elt Ideal) (prodMat (m ((c.tc : Thread nD τ).loc main_arg0)) (m ((c.tc : Thread nD τ).loc main_arg1))) := by
  show (cfg0.win 3).cut (grid0.coords t) ((dats m 0 c).after 3 t) = _
  rw [after0_3]
  unfold out0_3
  rw [View.canon_unit_zero hz]
  simp only [View.ld_unit_zero (S := S256x4096) hz, View.ld_unit_zero (S := S1024x4096) hz, View.ld_unit_zero (S := S256x1) hz]
  unfold iblk
  rw [A_act m c, A_wgt m c, A_fac m c]
  obtain ⟨-, -, -, -, -, -, e30, e31⟩ := idx_facts t
  have ht : t.val < 512 := lt_of_lt_of_eq t.isLt N_0
  funext y
  obtain ⟨p, q, rfl⟩ : ∃ (p : Fin 256) (q : Fin 1024), y = ix2 p q := ⟨y 0, y 1, eq_ix2 y⟩
  have hp := p.isLt
  have hq := q.isLt
  have hr : win0_3.index t (0 : Fin 2) * 256 + p.val < 8192 := by omega
  have hf : win0_3.index t (1 : Fin 2) * 1024 + q.val < 16384 := by omega
  rw [blk_out m c t p q ⟨_, hr⟩ ⟨_, hf⟩ rfl rfl]
  exact point_value (m ((c.tc : Thread nD τ).loc main_arg0)) (m ((c.tc : Thread nD τ).loc main_arg1)) _ _ _ ⟨_, hr⟩ ⟨_, hf⟩ p q
    (fun k => blk_act m c t p k ⟨_, hr⟩ rfl) (fun k => blk_wgt m c t q k ⟨_, hf⟩ rfl) (blk_fac m c t p ⟨_, hr⟩ rfl)

end Cert.KernelIdeal.ArrayValue

end
-- ==== Proof.KernelArray.lean ====
/-
  From the blocks to the whole result of the first program: the blocks tile the result, so after the last grid point
  the result array is the whole product; the reshape that follows only views it as [4, 2048, 16384].
-/
import proofs.«161110_j11570641895430_2_alg».proof.Proof.Gen.KernelIdeal.Frame
import proofs.«161110_j11570641895430_2_alg».proof.Proof.KernelFlush
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.BitLinear

variable (m : (ℓ : Loc nD τ sig) → Buf (Elt Ideal) ℓ) (ρ : Dev nD → PrngReg)

/-- After the last point the result array is the whole product. -/
theorem final (c : Dev nD) :
    (dats m 0 c).arrAt 3 cfg0.N = prodMat (m ((c.tc : Thread nD τ).loc main_arg0)) (m ((c.tc : Thread nD τ).loc main_arg1)) :=
  (dats m 0 c).arrAt_eq_of_cover 3 (prodMat (m ((c.tc : Thread nD τ).loc main_arg0)) (m ((c.tc : Thread nD τ).loc main_arg1)))
    (fun t _ => flushed_eq m c t) cover

/-- The reshape after the launch views the product as [4, 2048, 16384]. -/
theorem tail_value (c : Dev nD) :
    Pipeline.afterTail₀ cfgs (dats m) 0 (V0 m) [hostOps1] c main_v25
      = shapeCast S4x2048x16384 (prodMat (m ((c.tc : Thread nD τ).loc main_arg0)) (m ((c.tc : Thread nD τ).loc main_arg1)))
          shapeCasts_S8192x16384_S4x2048x16384 := by
  unfold Pipeline.afterTail₀
  show StableHlo.after hostOps1 _ (Proc.devRef .tc main_v25) = _
  after_results
  refine congrArg (fun v => shapeCast S4x2048x16384 v shapeCasts_S8192x16384_S4x2048x16384) ?_
  exact (Pipeline.withArrays_arr spec0 launch0.win.arr_inj c _ _ 3).trans (final m c)

/-- Every weakly fair execution of the first program terminates with its result at the whole product, viewed as
    [4, 2048, 16384], and its arguments unchanged. -/
theorem run : θ_run defs (onTc (τ := τ) (main (F := Ideal))) ⟨m, fun _ => 0, ρ⟩ fun r => ∀ c : Dev nD,
      r.2.mem ((c.tc : Thread nD τ).loc main_v25)
        = shapeCast S4x2048x16384 (prodMat (m ((c.tc : Thread nD τ).loc main_arg0)) (m ((c.tc : Thread nD τ).loc main_arg1)))
            shapeCasts_S8192x16384_S4x2048x16384
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v25 (Pipeline.mem_restRefs_of main_v25 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ArrayValue

end
-- ==== Proof.LibIdealReal.lean ====
/-
  Extended reals that are real numbers, and the operations that keep them so.

  Over the extended reals a product does not distribute over a sum in general (an infinite term spoils it), so an
  identity that moves a common factor out of a sum is proved on the reals and carried over. This file has what that
  takes: the predicate "is a real number", its closure under sum, product, negation, maximum, minimum, absolute value,
  the quotient by a nonzero real and rounding to an integer; a value clamped between two reals is real whatever it was;
  the maximum of a real and a running maximum of values below +∞ is real; a finite sum of reals is the real sum; and
  the identity itself,  Σ_k (a_k / d · g) · (b_k · α) = (Σ_k a_k · b_k) · (g / d · α)  for real data and d ≠ 0.
-/
import Idealize.ShloMosaic.PureOps.Ideal
import Mathlib.Data.EReal.Inv
import Mathlib.Algebra.BigOperators.Group.Finset.Basic
import Mathlib.Algebra.BigOperators.Ring.Finset
import Mathlib.Tactic.Ring

noncomputable section

namespace Cert.IdealReal

open Idealize.ShloMosaic
open scoped BigOperators

/-- The extended real `x` is a real number. -/
def IsReal (x : EReal) : Prop := ∃ r : ℝ, x = (r : EReal)

theorem isReal_coe (r : ℝ) : IsReal (r : EReal) := ⟨r, rfl⟩

/-- Strictly between −∞ and +∞ there are only reals. -/
theorem isReal_of_bounds {x : EReal} (h1 : ⊥ < x) (h2 : x < ⊤) : IsReal x :=
  ⟨x.toReal, (EReal.coe_toReal (ne_of_lt h2) (ne_of_gt h1)).symm⟩

theorem IsReal.bot_lt {x : EReal} (h : IsReal x) : ⊥ < x := by
  obtain ⟨r, rfl⟩ := h; exact EReal.bot_lt_coe r

theorem IsReal.lt_top {x : EReal} (h : IsReal x) : x < ⊤ := by
  obtain ⟨r, rfl⟩ := h; exact EReal.coe_lt_top r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The absolute value `max x (−x)` of a real is real. -/
theorem IsReal.abs {x : EReal} (hx : IsReal x) : IsReal (Max.max x (-x)) := hx.max hx.neg

/-- The quotient of a real by a nonzero real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- Rounding a real to an integer gives a real. -/
theorem IsReal.liftRound (f : ℝ → ℤ) {x : EReal} (hx : IsReal x) : IsReal (Ideal.liftRound f x) := by
  obtain ⟨a, rfl⟩ := hx; exact ⟨(f a : ℝ), rfl⟩

/-- Whatever `y` is, clamped between the reals `lo` and `hi` it is real. -/
theorem isReal_clamp (lo hi : ℝ) (y : EReal) : IsReal (Min.min (hi : EReal) (Max.max (lo : EReal) y)) :=
  isReal_of_bounds (lt_min (EReal.bot_lt_coe hi) (lt_max_of_lt_left (EReal.bot_lt_coe lo)))
    (min_lt_of_left_lt (EReal.coe_lt_top hi))

/-- The larger of a real `c` and the running maximum (from −∞) of values below +∞ is real. -/
theorem isReal_max_fold {ι : Type} (s : Finset ι) (f : ι → EReal) {c : EReal} (hc : IsReal c)
    (hf : ∀ k ∈ s, f k < ⊤) : IsReal (Max.max c (s.fold Max.max ⊥ f)) :=
  isReal_of_bounds (lt_max_of_lt_left hc.bot_lt)
    (max_lt hc.lt_top ((Finset.fold_max_lt ⊤).2 ⟨bot_lt_top, hf⟩))

/-- A finite sum of reals, in the extended reals, is the real sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem isReal_sum {ι : Type} (s : Finset ι) (f : ι → EReal) (hf : ∀ i, IsReal (f i)) : IsReal (∑ i ∈ s, f i) := by
  choose g hg using hf
  have e : f = fun i => (g i : EReal) := funext hg
  rw [e, ← coe_sum]; exact isReal_coe _

/-- A common real factor moves out of a sum of products of reals: with every `a k`, `b k`, `g` and `α` real and `d ≠ 0`,
    Σ_k (a k / d · g) · (b k · α) = (Σ_k a k · b k) · (g / d · α). -/
theorem sum_rescaled {ι : Type} [Fintype ι] (a b : ι → EReal) (g α : EReal) (d : ℝ) (hd : d ≠ 0)
    (ha : ∀ k, IsReal (a k)) (hb : ∀ k, IsReal (b k)) (hg : IsReal g) (hα : IsReal α) :
    ∑ k, (Ideal.div (a k) (d : EReal) * g) * (b k * α) = (∑ k, a k * b k) * (Ideal.div g (d : EReal) * α) := by
  choose a' ha' using ha
  choose b' hb' using hb
  obtain ⟨g', rfl⟩ := hg
  obtain ⟨α', rfl⟩ := hα
  have ea : a = fun k => (a' k : EReal) := funext ha'
  have eb : b = fun k => (b' k : EReal) := funext hb'
  subst ea eb
  simp only [Ideal.div_coe hd, ← EReal.coe_mul, ← coe_sum]
  rw [EReal.coe_eq_coe_iff, Finset.sum_mul]
  exact Finset.sum_congr rfl fun k _ => by ring

end Cert.IdealReal

end
-- ==== Proof.Consts.lean ====
/-
  The float constants the two programs spell, as the extended reals their bit patterns denote: 0, 1, −1, 127,
  2^26 = 67108864 (the number of weights), −∞, and the small positive floor c (the float nearest 1e-8), of which
  only positivity is used.
-/
import Idealize.ShloMosaic.PureOps.Ideal

noncomputable section

namespace Cert.BitLinear.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_negOne : Ideal.ofBits .f32 0xBF800000#32 = ((-1 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_count : Ideal.ofBits .f32 0x4C800000#32 = ((67108864 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The floor c = 11258999 · 2^-50 is a positive real. -/
theorem ofBits_floor : ∃ r : ℝ, 0 < r ∧ Ideal.ofBits .f32 0x322BCC77#32 = (r : EReal) := by
  refine ⟨11258999 * (2 : ℝ) ^ (-50 : ℤ), by positivity, ?_⟩
  simp [Ideal.ofBits, Ideal.ieee, -EReal.coe_mul]

end Cert.BitLinear.Consts

end
-- ==== Proof.Bridge.lean ====
/-
  Why the two result matrices are one, for finite inputs.

  With every input entry a real number: a row's greatest absolute value is real, so the row scale g — the larger of it
  and the positive floor c — is real and not zero; x / g · 127 is then real and so is its rounding a; the weights'
  absolute sum is real, so α = sum / 2^26 + c is real; the ternary weight b is clamped between −1 and 1, hence real
  whatever it was. So both results are sums and products of reals, and
      Σ_k (a_k / 127 · g) · (b_k · α)  =  (Σ_k a_k · b_k) · (g / 127 · α)
  is the distributive law on the reals.
-/
import proofs.«161110_j11570641895430_2_alg».proof.Proof.Entries
import proofs.«161110_j11570641895430_2_alg».proof.Proof.LibIdealReal
import proofs.«161110_j11570641895430_2_alg».proof.Proof.Consts
import Idealize.ShloMosaic.Lib.Pipeline.Value
import Idealize.ShloMosaic.Lib.ValueIdx
import Idealize.ShloMosaic.PureOps.Ideal.Laws

noncomputable section

namespace Cert.BitLinear

open Idealize.ShloMosaic Idealize.ShloMosaic.ValueIdx Cert.IdealReal

theorem hredRow' : SX.Reduces [1] SR := by decide

/-! ## Broadcasts read at an index -/

/-- A scalar broadcast to any shape reads the scalar. -/
theorem bcast0_apply {t : Shape} (h : S0.BroadcastsInDim t (![] : Fin 0 → Fin t.rank)) (v : S0.Idx → EReal) (j : t.Idx) :
    broadcastInDim t ![] h v j = v ix0 :=
  broadcastInDim_apply _ h v j ix0 (fun a => a.elim0)

/-- The column broadcast along the rows reads the column's entry of that row. -/
theorem bcastCol_apply (v : SC.Idx → EReal) (r : Fin 8192) (k : Fin 4096) :
    broadcastInDim SX ![0, 1] hbCX v (ix2 r k) = v (ix2 r (0 : Fin 1)) :=
  broadcastInDim_apply _ hbCX v (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-- A vector of row values as a column reads the vector's entry. -/
theorem bcastRow_apply (v : SR.Idx → EReal) (r : Fin 8192) (u : Fin 1) :
    broadcastInDim SC ![0] hbRC v (ix2 r u) = v (ix1 r) :=
  broadcastInDim_apply _ hbRC v (ix2 r u) (ix1 r) (fun a => match a with
    | ⟨0, _⟩ => by show r.val = if (8192 : Nat) = 1 then 0 else r.val; rw [if_neg (by decide)])

/-- The host's rounding and quotient, read at an index. -/
theorem roundeven_apply {s : Shape} (v : FVec Ideal s .f32) (j : s.Idx) :
    Host.roundeven v j = Ideal.liftRound Ideal.roundHalfEven (v j) := rfl
theorem hostDivf_apply {s : Shape} (a b : FVec Ideal s .f32) (j : s.Idx) : Host.divf a b j = Ideal.div (a j) (b j) := rfl

variable (X : FVec Ideal SX3 .f32) (W : FVec Ideal SW .f32)

/-! ## The stages are real -/

theorem xmat_real (hX : ∀ i, IsReal (X i)) (j : SX.Idx) : IsReal (xmat X j) := by
  unfold xmat shapeCast; exact hX _

/-- The row scale is a real number and not zero. -/
theorem rowScale_real (hX : ∀ i, IsReal (X i)) (r : Fin 8192) (u : Fin 1) :
    IsReal (rowScale X (ix2 r u)) ∧ rowScale X (ix2 r u) ≠ 0 := by
  obtain ⟨c, hc0, hc⟩ := Consts.ofBits_floor
  have e : rowScale X (ix2 r u) = max (c : EReal)
      ((Finset.univ : Finset (Fin (SX.size 1))).fold max ⊥ (Host.absf (xmat X) ∘ hredRow'.lift (ix1 r))) := by
    unfold rowScale
    refine (maximumf_apply _ _ _).trans (congrArg₂ max ?_ ?_)
    · exact (bcast0_apply hb0C _ _).trans hc
    · refine (bcastRow_apply _ r u).trans ?_
      refine (Host.reduce_eq_fold_single FloatOps.maximumf _ _ hredRow hredRow' hS0 (ix1 r)).trans ?_
      show Finset.fold max (Ideal.ofBits .f32 0xFF800000#32) _ _ = _
      rw [Consts.ofBits_negInf]
  rw [e]
  have hfold : ∀ k ∈ (Finset.univ : Finset (Fin (SX.size 1))), (Host.absf (xmat X) ∘ hredRow'.lift (ix1 r)) k < ⊤ :=
    fun k _ => (IsReal.abs (xmat_real X hX _)).lt_top
  refine ⟨isReal_max_fold _ _ (isReal_coe c) hfold, ?_⟩
  have hpos : (0 : EReal) < max (c : EReal)
      ((Finset.univ : Finset (Fin (SX.size 1))).fold max ⊥ (Host.absf (xmat X) ∘ hredRow'.lift (ix1 r))) :=
    lt_max_of_lt_left (by exact_mod_cast hc0)
  exact ne_of_gt hpos

/-- The quantised activation at (r, k): the rounding of x / g · 127. -/
theorem actInt_apply (r : Fin 8192) (k : Fin 4096) :
    actInt X (ix2 r k) = Ideal.liftRound Ideal.roundHalfEven
      (Ideal.div (xmat X (ix2 r k)) (rowScale X (ix2 r (0 : Fin 1))) * ((127 : ℝ) : EReal)) := by
  unfold actInt
  rw [roundeven_apply, mulf_apply, hostDivf_apply, bcastCol_apply, bcast0_apply hb0X, constant_apply, Consts.ofBits_127]

theorem actInt_real (hX : ∀ i, IsReal (X i)) (r : Fin 8192) (k : Fin 4096) : IsReal (actInt X (ix2 r k)) := by
  rw [actInt_apply]
  obtain ⟨hg, hg0⟩ := rowScale_real X hX r 0
  exact (((xmat_real X hX _).div hg hg0).mul (isReal_coe 127)).liftRound _

/-- The weight scale is a real number. -/
theorem wScale_real (hW : ∀ i, IsReal (W i)) (i : S0.Idx) : IsReal (wScale W i) := by
  obtain ⟨c, _, hc⟩ := Consts.ofBits_floor
  have hsum : Host.reduceAdd (F := Ideal) (Host.absf W) (constant S0 .f32 0x00000000#32) hredAll hS0 i
      = Ideal.ofBits .f32 0x00000000#32 + ∑ j : SW.Idx, Host.absf W j := by
    simp only [Host.reduceAdd, Ideal.hostReduceAdd_def]
    exact Ideal.hostReduceAdd_total hredAll (fun b => b.elim0) _ _ i
  have e : wScale W i = Ideal.div (Ideal.ofBits .f32 0x00000000#32 + ∑ j : SW.Idx, Host.absf W j)
      (Ideal.ofBits .f32 0x4C800000#32) + Ideal.ofBits .f32 0x322BCC77#32 := by
    unfold wScale
    rw [addf_apply, hostDivf_apply, hsum, constant_apply, constant_apply]
  rw [e, Consts.ofBits_zero, Consts.ofBits_count, hc]
  have h0 : IsReal (0 : EReal) := ⟨0, rfl⟩
  have hne : ((67108864 : ℝ) : EReal) ≠ 0 := by exact_mod_cast (by norm_num : (67108864 : ℝ) ≠ 0)
  exact ((h0.add (isReal_sum _ _ fun j => (hW j).abs)).div (isReal_coe _) hne).add (isReal_coe c)

/-- The ternary weight is a real number, whatever the weights are: it is clamped between −1 and 1. -/
theorem wInt_real (j : SW.Idx) : IsReal (wInt W j) := by
  have e : wInt W j = min ((1 : ℝ) : EReal) (max ((-1 : ℝ) : EReal)
      (Host.roundeven (Host.divf W (broadcastInDim SW ![] hb0W (wScale W))) j)) := by
    unfold wInt
    refine (minimumf_apply _ _ _).trans (congrArg₂ min ?_ ?_)
    · exact (bcast0_apply hb0W _ _).trans Consts.ofBits_one
    · refine (maximumf_apply _ _ _).trans (congrArg₂ max ?_ rfl)
      exact (bcast0_apply hb0W _ _).trans Consts.ofBits_negOne
  rw [e]; exact isReal_clamp (-1) 1 _

/-! ## The dequantised stages and the row factor, read at an index -/

theorem rowFactor_apply (r : Fin 8192) :
    rowFactor X W (ix2 r (0 : Fin 1)) = Ideal.div (rowScale X (ix2 r (0 : Fin 1))) ((127 : ℝ) : EReal) * wScale W ix0 := by
  unfold rowFactor
  rw [mulf_apply, hostDivf_apply, bcast0_apply hb0C, bcast0_apply hb0C, constant_apply, Consts.ofBits_127]

theorem actDeq_apply (r : Fin 8192) (k : Fin 4096) :
    actDeq X (ix2 r k) = Ideal.div (actInt X (ix2 r k)) ((127 : ℝ) : EReal) * rowScale X (ix2 r (0 : Fin 1)) := by
  unfold actDeq
  rw [mulf_apply, hostDivf_apply, bcast0_apply hb0X, bcastCol_apply, constant_apply, Consts.ofBits_127]

theorem wDeq_apply (f : Fin 16384) (k : Fin 4096) :
    wDeq W (ix2 f k) = wInt W (ix2 f k) * wScale W ix0 := by
  unfold wDeq
  rw [mulf_apply, bcast0_apply hb0W]

/-! ## The two entries agree -/

/-- For real inputs the two programs' result matrices agree entry by entry. -/
theorem entries_eq (hX : ∀ i, IsReal (X i)) (hW : ∀ i, IsReal (W i)) (r : Fin 8192) (f : Fin 16384) :
    deqEntry X W r f = prodEntry X W r f := by
  unfold deqEntry prodEntry
  simp only [actDeq_apply, wDeq_apply, rowFactor_apply]
  exact sum_rescaled (fun k => actInt X (ix2 r k)) (fun k => wInt W (ix2 f k)) (rowScale X (ix2 r (0 : Fin 1))) (wScale W ix0) 127
    (by norm_num) (fun k => actInt_real X hX r k) (fun k => wInt_real W _) (rowScale_real X hX r 0).1 (wScale_real W hW ix0)

end Cert.BitLinear

end
-- ==== Proof.Finite.lean ====
/-
  What the precondition says: every entry of both inputs is a real number.

  The precondition is the conjunction of two `all`s: every |x| is below +∞ and every |w| is below +∞. An extended real
  whose absolute value max (x, −x) is below +∞ is neither +∞ nor −∞.
-/
import proofs.«161110_j11570641895430_2_alg».proof.Pre_finite_inputs
import proofs.«161110_j11570641895430_2_alg».proof.Proof.LibIdealReal
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx Cert.IdealReal

instance : Subsingleton S_.Idx := ⟨fun a b => funext fun d => d.elim0⟩

/-- An extended real whose absolute value compares below the pattern of +∞ is a real number. -/
theorem real_of_abs_lt {x : EReal}
    (h : FloatOps.cmpf (F := Ideal) (φ := .f32) .olt (FloatOps.hostAbsf (F := Ideal) (φ := .f32) x) (Ideal.ofBits .f32 0x7F800000#32) = 1#1) :
    IsReal x := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  have h1 : x < ⊤ := lt_of_le_of_lt (le_max_left _ _) hlt
  have h2 : -x < ⊤ := lt_of_le_of_lt (le_max_right _ _) hlt
  refine isReal_of_bounds (bot_lt_iff_ne_bot.2 fun hb => ?_) h1
  rw [hb, EReal.neg_bot] at h2
  exact lt_irrefl _ h2

variable [Facts]

/-- Under the precondition every entry of x and of w is a real number. -/
theorem inputs_real (X : FVec Ideal S4x2048x4096 .f32) (W : FVec Ideal S16384x4096 .f32)
    (h : fn (F := Ideal) X W = fun _ => 1#1) : (∀ i, IsReal (X i)) ∧ (∀ i, IsReal (W i)) := by
  have h0 := congrFun h ix0
  dsimp only [fn] at h0
  obtain ⟨hx, hw⟩ := IntOp.andi_eq_one.1 h0
  exact ⟨fun i => real_of_abs_lt (Host.reduce_andi_all _ _ _ _ ix0 hx i),
    fun i => real_of_abs_lt (Host.reduce_andi_all _ _ _ _ ix0 hw i)⟩

end Cert.Pre_finite_inputs.Finite

end
-- ==== Proof.lean ====
/-
  A bit-linear layer two ways, equal on the extended reals for finite inputs.

  Both programs quantise the activations x row by row (scale g = max(|row|) floored at c, integers a = round(x/g·127))
  and the weights w globally (scale α = mean|w| + c, ternary b = clamp(round(w/α), −1, 1)).
  The first multiplies the integer matrices inside a tiled kernel and rescales each output row once:
      out r f = (Σ_k a r k · b f k) · (g r / 127 · α);
  the second dequantises every entry first and multiplies on the host:
      out r f = Σ_k (a r k / 127 · g r) · (b f k · α).
  Finite inputs make every one of a, b, g, α a real number (g moreover nonzero), and on the reals the two are the same
  number by distributivity. Format changes are the identity on the extended reals, and the tiling of the product over
  a 16 × 32 grid of blocks does not change any entry.

  The three frames: the two kernel programs terminate with their arguments unchanged by the launch's own frame; the
  reference's frame is its run with the result forgotten. The idealised kernel is the kernel's own operations read on
  the extended reals, none replaced, so the preservation claim is the trivial proposition.
-/
import proofs.«161110_j11570641895430_2_alg».proof.Defs
import proofs.«161110_j11570641895430_2_alg».proof.Proof.Gen.Kernel
import proofs.«161110_j11570641895430_2_alg».proof.Proof.Gen.Kernel.Skeleton
import proofs.«161110_j11570641895430_2_alg».proof.Proof.Gen.Kernel.Launch
import proofs.«161110_j11570641895430_2_alg».proof.Proof.Gen.Kernel.Points
import proofs.«161110_j11570641895430_2_alg».proof.Proof.Gen.Kernel.Frame
import proofs.«161110_j11570641895430_2_alg».proof.Proof.Gen.KernelIdeal
import proofs.«161110_j11570641895430_2_alg».proof.Proof.Gen.KernelIdeal.Skeleton
import proofs.«161110_j11570641895430_2_alg».proof.Proof.Gen.KernelIdeal.Launch
import proofs.«161110_j11570641895430_2_alg».proof.Proof.Gen.KernelIdeal.Points
import proofs.«161110_j11570641895430_2_alg».proof.Proof.Gen.KernelIdeal.Frame
import proofs.«161110_j11570641895430_2_alg».proof.Proof.Gen.ReferenceIdeal
import proofs.«161110_j11570641895430_2_alg».proof.Proof.Gen.Pre_finite_inputs
import proofs.«161110_j11570641895430_2_alg».proof.Proof.RefRun
import proofs.«161110_j11570641895430_2_alg».proof.Proof.RefValue
import proofs.«161110_j11570641895430_2_alg».proof.Proof.KernelArray
import proofs.«161110_j11570641895430_2_alg».proof.Proof.Bridge
import proofs.«161110_j11570641895430_2_alg».proof.Proof.Finite
import Idealize.ShloMosaic.Adequacy
import Idealize.ShloMosaic.Init

noncomputable section

namespace Cert.Proof

open Idealize.ShloMosaic Idealize.SL.Sem Idealize.ShloMosaic.ValueIdx Cert.BitLinear Cert.IdealReal

/-- For real inputs the first program's product, viewed as [4, 2048, 16384], is the second program's result: entry
    (b, s, f) of either is the entry (b · 2048 + s, f) of its matrix, and the matrices agree entry by entry. -/
theorem results_eq (X : FVec Ideal SX3 .f32) (W : FVec Ideal SW .f32) (hX : ∀ i, IsReal (X i)) (hW : ∀ i, IsReal (W i))
    (h : Cert.KernelIdeal.S8192x16384.ShapeCasts Cert.KernelIdeal.S4x2048x16384) :
    shapeCast Cert.KernelIdeal.S4x2048x16384 (Cert.KernelIdeal.ArrayValue.prodMat X W) h
      = Cert.ReferenceIdeal.RefRun.result (F := Ideal) X W := by
  funext i
  obtain ⟨b, s, f, rfl⟩ : ∃ (b : Fin 4) (s : Fin 2048) (f : Fin 16384), i = ix3 b s f := ⟨i 0, i 1, i 2, eq_ix3 i⟩
  rw [Cert.ReferenceIdeal.RefValue.result_apply, entries_eq X W hX hW]
  exact (shapeCast_apply _ h (ix3 b s f) (ix2 (rowOf b s) f) (by
    rw [Shape.rowMajor_val_two, Shape.rowMajor_val_three]; rfl)).trans rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on x and w, both finite, the two programs end with the same array. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hX, hW⟩ := Cert.Pre_finite_inputs.Finite.inputs_real _ _ (hpre c)
  exact (results_eq _ _ hX hW _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
